-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .bf16⟩
  | .local _ .vmem, ⟨0, _⟩ => ⟨S256x256, .f32⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  { ofTc nBuf bufTy 1 4 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v23 : BitVec 32 := Scalar.muli v2 c4_i32_12
  let v24 : BitVec 32 := Scalar.addi c0_i32_13 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v25 : BitVec 32 := Scalar.muli v5 c2_i32_14
  let v26 : BitVec 32 := Scalar.addi v24 v25
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_15 : BitVec 32 := 1#32
  let v27 : BitVec 32 := Scalar.muli v9 c1_i32_15
  let v28 : BitVec 32 := Scalar.addi v26 v27
  v28.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  packedbf16_S256x256_S256x256_0_0 : (Rect.unit (s := S256x256) ![0, 0] S256x256.size inb_S256x256_S256x256_0_0).PackedRows (EltTy.packing .bf16)
  hcc0_scratch2 : 2 + S_.numel ≤ 4
  hcc0_scratch3 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | .hbm, ⟨4, _⟩ => ⟨S256x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel
  bitsLt_bf16_f32 : FTy.bits .bf16 < FTy.bits .f32

variable [Facts₀]

class Facts : Prop extends Facts₀ where

variable [Facts]
-- ==== Proof.ProtoKernel.lean ====
/-
  The all-reduce across the mesh's last axis, one device's view of it: the protocol.

  Eight devices, numbered row-major over a 2 x 2 x 2 mesh; device `c` and the device `peer c` across the last axis
  (the two differ in the last coordinate only, so `peer` is an involution) exchange their blocks. Each device
  * signals its peer's barrier semaphore one unit, handing the peer its landing buffer (and the fact that it stands at
    round 0 of its receive cell): from then on the peer may copy into that buffer;
  * rounds its block of `x` into its send buffer;
  * waits one unit on its own barrier semaphore (the peer's signal: the peer's landing buffer comes with it);
  * copies its send buffer into the peer's landing buffer, the copy crediting its own send semaphore once the source is
    read and the peer's receive semaphore once the destination is written;
  * waits for its own receive semaphore (the peer's copy has landed: the landing buffer holds the peer's rounded block),
    adds the two buffers into the output block, and only then waits for its own send semaphore.
  The send buffer is READ (by the addition) while the copy out of it is still in flight, so the copy is lent one half
  share of it and the device keeps the other half to read with; the two halves meet again at the last wait.

  Three cells a device, one round each, one duty a round (duty names `Unit`): the barrier cell's duty is paid by the peer's
  signal (one unit), the receive cell's by the peer's copy and the send cell's by the device's own copy (the buffer's
  credit `N` each). A device owes, at launch, one unit to its peer's barrier cell and `N` to its peer's receive cell. Levels:
  barrier cells 1, receive cells 2, everything else 0 — a device waits on its barrier cell while it owes only a receive
  cell, and on its receive and send cells owing nothing.
-/
import proofs.«900343_g7700000000000344_dist_ar_v7x_xyz2x2x2_z_m256_n256_bf16_1_alg».proof.Proof.Gen.Kernel
import proofs.«900343_g7700000000000344_dist_ar_v7x_xyz2x2x2_z_m256_n256_bf16_1_alg».proof.Proof.Gen.Kernel.Skeleton
import proofs.«900343_g7700000000000344_dist_ar_v7x_xyz2x2x2_z_m256_n256_bf16_1_alg».proof.Proof.Gen.Kernel.Launch
import proofs.«900343_g7700000000000344_dist_ar_v7x_xyz2x2x2_z_m256_n256_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's own (duty names `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The peer across the last mesh axis -/

/-- Device `c` is at `(c / 4, c / 2 % 2, c % 2)`; its peer has the last coordinate flipped: `c + 1` for even `c`,
    `c - 1` for odd. -/
def peer (c : Dev nD) : Dev nD := ⟨c.val + 1 - 2 * (c.val % 2), by have h : c.val < 8 := c.isLt; show _ < 8; omega⟩

theorem peer_peer (c : Dev nD) : peer (peer c) = c := by revert c; decide
theorem peer_ne (c : Dev nD) : peer c ≠ c := by revert c; decide

/-- Both device words the kernel computes (for the signal and for the copy) name the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def across : Dev nD ≃ Dev nD := ⟨peer, peer, peer_peer, peer_peer⟩

/-! ## The memrefs and cells -/

abbrev xM : Memref sig .tc .vmem S256x256 .f32 := Memref.whole cc0_stg0_0
abbrev oM : Memref sig .tc .vmem S256x256 .bf16 := Memref.whole cc0_stg1_0
/-- The send buffer (the device's rounded block) and the landing buffer (where the peer's copy arrives). -/
abbrev sM : Memref sig .tc .vmem S256x256 .bf16 := Memref.whole cc0_scratch0
abbrev rM : Memref sig .tc .vmem S256x256 .bf16 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three the protocol runs on: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- Device `c`'s block of `x`, as its input window stages it. -/
def xblk (c : Dev nD) : (cc0_stg0_0 : Ref sig .tc).ty.Contents (Elt F) :=
  (win0_0.blk (0 : Fin 1)).view.read (Elt F) (m ((c : Thread nD τ).loc main_arg0))

/-- What device `c` puts in its send buffer: its block rounded to the narrow format. -/
def sent (c : Dev nD) : (cc0_scratch0 : Ref sig .tc).ty.Contents (Elt F) := k0_pay2 (xblk m c)

/-- What lands on device `c`: its peer's send buffer. -/
def landed (c : Dev nD) : Buf (Elt F) ((rM : Memref sig .tc .vmem S256x256 .bf16).view.loc (c : Thread nD τ)) := sent m (peer c)

/-- The kernel's result on device `c`: its own rounded block plus its peer's. -/
def outAt (c : Dev nD) : (cc0_stg1_0 : Ref sig .tc).ty.Contents (Elt F) := k0_pay1 (sent m c) (sent m (peer c))

omit [FloatOps F] in
/-- A whole buffer overwritten with a whole buffer's contents holds those contents. -/
theorem landed_eq (c : Dev nD) (fd : Buf (Elt F) ((rM : Memref sig .tc .vmem S256x256 .bf16).view.loc (c : Thread nD τ)))
    (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

def sPts (q : PosShare TreeShare) (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{q} f
def rPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f

omit [FloatOps F] in
instance sPts_storable (q : PosShare TreeShare) (c : Dev nD) (f) : BI.Storable (upEmb : UEmb _ 𝕄) (sPts (F := F) q c f) := by unfold sPts; infer_instance
omit [FloatOps F] in
instance rPts_storable (c : Dev nD) (f) : BI.Storable (upEmb : UEmb _ 𝕄) (rPts (F := F) c f) := by unfold rPts; infer_instance

omit [FloatOps F] in
theorem s_set : (sM : Memref sig .tc .vmem S256x256 .bf16).view.set = Finset.univ := View.set_whole _
omit [FloatOps F] in
theorem r_set : (rM : Memref sig .tc .vmem S256x256 .bf16).view.set = Finset.univ := View.set_whole _
omit [FloatOps F] in
theorem sPts_eq (q : PosShare TreeShare) (c : Dev nD) (f : Buf (Elt F) ((c : Thread nD τ).loc cc0_scratch0)) :
    sPts q c f = (((c : Thread nD τ).loc cc0_scratch0) ↦{q} f : sProp 𝕄) := by unfold sPts; rw [s_set]
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [r_set]

omit [FloatOps F] in
/-- The send buffer whole is its two half shares. -/
theorem sPts_halves (c : Dev nD) (f : Buf (Elt F) ((c : Thread nD τ).loc cc0_scratch0)) :
    (sPts fullShare c f : sProp 𝕄) ⊣⊢ iprop(sPts fullShare.left c f ∗ sPts fullShare.right c f) := by
  rw [sPts_eq, sPts_eq, sPts_eq]
  exact pointsTo_share (PosShare.mem_left_op_right fullShare)

/-! ## The schedule -/

/-- What the peer's signal hands device `c`: the peer's landing buffer, and that the peer stands at round 0 of its receive cell. -/
def barPay (c : Dev nD) : sProp 𝕄 := iprop((∃ f, rPts (peer c) f) ∗ reached ER (recvCell (peer c)) 0)
/-- What the peer's copy hands device `c`: its landing buffer holding the peer's send buffer. -/
def recvPay (c : Dev nD) : sProp 𝕄 := rPts c (landed m c)
/-- What the device's own copy hands back: the half of the send buffer it was lent. -/
def sendPay (c : Dev nD) : sProp 𝕄 := sPts fullShare.left c (sent m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, of one duty: a barrier cell's is one unit; a send or receive cell's the buffer's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its peer's receive cell the buffer's credit (its copy) and its peer's barrier cell one unit (its
    signal, made first: the last summand). -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging cell (level 0) is below everything a device owes at any time. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait (level 1) a device owes its peer's receive cell (level 2) only. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The ghost state a device starts from, and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three, and
    its peer's barrier cell (its signal) and receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device `c` starts from: the invariants; its positions at round 0 of its three cells; that
    round 0 is reached of the cells it pays and of its own send and receive cells; the three duty tokens it pays with —
    its peer's barrier duty, its peer's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N) ∗ levAts L lv)

/-- Before the point: that, and the two scratch buffers at some contents. -/
def Φ₀ (c : Dev nD) : sProp 𝕄 := iprop(start m c ∗ (∃ f, sPts fullShare c f) ∗ (∃ f, rPts c f))
/-- After it: the send buffer whole again, the landing buffer holding the peer's, the two own cells at zero, closed. -/
def Φ₁ (c : Dev nD) : sProp 𝕄 :=
  iprop(sPts fullShare c (sent m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.AllReduce

end
-- ==== Proof.BodyKernel.lean ====
/-
  One device's body, at a symbolic device `c`: from the protocol's ghost state and the staged block of `x` to the output
  block holding the sum of the device's rounded block and its peer's, the send buffer whole again, the landing buffer
  holding the peer's rounded block, the device's two own cells closed at zero, nothing owed.

  In program order: the signal pays the peer's barrier duty (handing over the landing buffer); the block is rounded into
  the send buffer; the barrier wait, made while the device still owes its peer's receive cell, brings the peer's landing
  buffer; the copy pays the device's own send duty with one half of the send buffer and the peer's receive duty with the
  peer's landing buffer rewritten; the receive wait brings the device's own landing buffer, written by the peer; the two
  buffers are read — the send buffer at the half the device kept — and their sum stored; the send wait brings the lent
  half back.
-/
import proofs.«900343_g7700000000000344_dist_ar_v7x_xyz2x2x2_z_m256_n256_bf16_1_alg».proof.Proof.ProtoKernel

noncomputable section

namespace Cert.Kernel.AllReduce

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem xPts_eq (c : Dev nD) (f : Buf (Elt F) ((c : Thread nD τ).loc cc0_stg0_0)) :
    ((xM : Memref sig .tc .vmem S256x256 .f32).view.loc (c : Thread nD τ) ↦[(xM : Memref sig .tc .vmem S256x256 .f32).view.set]{fullShare} f : sProp 𝕄)
      = (((c : Thread nD τ).loc cc0_stg0_0) ↦{fullShare} f) := by rw [View.set_whole]
omit [FloatOps F] in
theorem oPts_eq (c : Dev nD) (f : Buf (Elt F) ((c : Thread nD τ).loc cc0_stg1_0)) :
    ((oM : Memref sig .tc .vmem S256x256 .bf16).view.loc (c : Thread nD τ) ↦[(oM : Memref sig .tc .vmem S256x256 .bf16).view.set]{fullShare} f : sProp 𝕄)
      = (((c : Thread nD τ).loc cc0_stg1_0) ↦{fullShare} f) := by rw [View.set_whole]

omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f
omit [FloatOps F] in
theorem read_s (f : (cc0_scratch0 : Ref sig .tc).ty.Contents (Elt F)) : (sM : Memref sig .tc .vmem S256x256 .bf16).view.readAt (Elt F) r0.toLoadRect f = f :=
  Memref.readAt_unit_zero (Elt F) cc0_scratch0 hz _ f
omit [FloatOps F] in
theorem read_r (f : (cc0_scratch1 : Ref sig .tc).ty.Contents (Elt F)) : (rM : Memref sig .tc .vmem S256x256 .bf16).view.readAt (Elt F) r0.toLoadRect f = f :=
  Memref.readAt_unit_zero (Elt F) cc0_scratch1 hz _ f

/-- The send buffer after the store of the rounded block, whatever it held. -/
theorem stored_s (c : Dev nD) (f : (cc0_scratch0 : Ref sig .tc).ty.Contents (Elt F)) :
    (sM : Memref sig .tc .vmem S256x256 .bf16).view.writes (Elt F) f
        [⟨r0, k0_pay2 ((xM : Memref sig .tc .vmem S256x256 .f32).view.readAt (Elt F) r0.toLoadRect (xblk m c))⟩] = sent m c := by
  rw [View.writes_singleton, read_x]
  exact Memref.write_access_unit_zero_univ (Elt F) cc0_scratch0 hz _ f _

omit [FloatOps F] in
/-- The send buffer whole is its two half shares (through the memref's view). -/
theorem s_halves (c : Dev nD) (f : Buf (Elt F) ((c : Thread nD τ).loc cc0_scratch0)) :
    ((sM : Memref sig .tc .vmem S256x256 .bf16).view.loc (c : Thread nD τ) ↦[(sM : Memref sig .tc .vmem S256x256 .bf16).view.set]{fullShare} f : sProp 𝕄)
      ⊣⊢ iprop(((sM : Memref sig .tc .vmem S256x256 .bf16).view.loc (c : Thread nD τ) ↦[(sM : Memref sig .tc .vmem S256x256 .bf16).view.set]{fullShare.left} f)
        ∗ ((sM : Memref sig .tc .vmem S256x256 .bf16).view.loc (c : Thread nD τ) ↦[(sM : Memref sig .tc .vmem S256x256 .bf16).view.set]{fullShare.right} f)) := by
  have h := sPts_halves (F := F) c f
  unfold sPts at h
  exact h

/-- The output's staging buffer after the store of the sum, whatever it held. -/
theorem stored_o (c : Dev nD) (f : (cc0_stg1_0 : Ref sig .tc).ty.Contents (Elt F)) :
    (oM : Memref sig .tc .vmem S256x256 .bf16).view.writes (Elt F) f
        [⟨r0, k0_pay1 ((sM : Memref sig .tc .vmem S256x256 .bf16).view.readAt (Elt F) r0.toLoadRect (sent m c))
            ((rM : Memref sig .tc .vmem S256x256 .bf16).view.readAt (Elt F) r0.toLoadRect (sent m (peer c)))⟩] = outAt m c := by
  rw [View.writes_singleton, read_s, read_r]
  exact Memref.write_access_unit_zero_univ (Elt F) cc0_stg1_0 hz _ f _

def bodyPre (c : Dev nD) : sProp 𝕄 :=
  iprop((ghost m K c ∗ cred (tallyAt (barCell c) () 1) ∗ cred (tallyAt (recvCell c) () N) ∗ levAts L lv ∗ (∃ f, sPts fullShare c f) ∗ (∃ f, rPts c f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xblk m c) ∗ stg c cc0_stg1_0 (outAt m c))

/-! The schedule's payloads spelt out as assertions about buffers. For the peer's cells the payload speaks of the peer's
    peer, which is the device itself (`peer` is an involution): those entries are stated with that resolved. -/

theorem tbl_payload_bar (c : Dev nD) (d : Unit) : (sched (F := F) m).payload (barCell c) 0 d
    = iprop((∃ f, ((rM : Memref sig .tc .vmem S256x256 .bf16).view.loc (peer c : Thread nD τ) ↦[(rM : Memref sig .tc .vmem S256x256 .bf16).view.set]{fullShare} f))
        ∗ reached ER (recvCell (peer c)) 0) := by
  rw [payload_bar]; unfold barPay rPts; rfl
theorem tbl_payload_recv (c : Dev nD) (d : Unit) : (sched (F := F) m).payload (recvCell c) 0 d
    = ((rM : Memref sig .tc .vmem S256x256 .bf16).view.loc (c : Thread nD τ) ↦[(rM : Memref sig .tc .vmem S256x256 .bf16).view.set]{fullShare} sent m (peer c)) := by
  rw [payload_recv]; unfold recvPay rPts landed; rfl
theorem tbl_payload_send (c : Dev nD) (d : Unit) : (sched (F := F) m).payload (sendCell c) 0 d
    = ((sM : Memref sig .tc .vmem S256x256 .bf16).view.loc (c : Thread nD τ) ↦[(sM : Memref sig .tc .vmem S256x256 .bf16).view.set]{fullShare.left} sent m c) := by
  rw [payload_send]; unfold sendPay sPts; rfl

theorem tbl_payload_bar_peer (c : Dev nD) (d : Unit) : (sched (F := F) m).payload (barCell (peer c)) 0 d
    = iprop((∃ f, ((rM : Memref sig .tc .vmem S256x256 .bf16).view.loc (c : Thread nD τ) ↦[(rM : Memref sig .tc .vmem S256x256 .bf16).view.set]{fullShare} f))
        ∗ reached ER (recvCell c) 0) := by
  rw [payload_bar]; unfold barPay rPts; rw [peer_peer]
theorem tbl_payload_recv_peer (c : Dev nD) (d : Unit) : (sched (F := F) m).payload (recvCell (peer c)) 0 d
    = ((rM : Memref sig .tc .vmem S256x256 .bf16).view.loc (peer c : Thread nD τ) ↦[(rM : Memref sig .tc .vmem S256x256 .bf16).view.set]{fullShare} sent m c) := by
  rw [payload_recv]; unfold recvPay rPts landed; rw [peer_peer]

attribute [local sl_rounds high] tbl_payload_bar_peer tbl_payload_recv_peer
attribute [local sl_rounds] duties_bar duties_send duties_recv amount_bar amount_send amount_recv expect_bar expect_send expect_recv
  tbl_payload_bar tbl_payload_recv tbl_payload_send

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs⟩, ⟨%fr0, Hr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₁ sPts rPts
  ihave Hx := (Entails.of_eq (xPts_eq c _).symm) $$ Hx
  ihave Hout := (Entails.of_eq (oPts_eq c _).symm) $$ Hout
  have hmw := mayWait_bar (F := F) c
  have hd1 := dev1_eq c
  have hd2 := dev2_eq c
  sl_exec
  -- the send buffer holds the rounded block; one half of it is lent to the copy, the other kept to read with
  rw [stored_s m c fs0]
  ihave Hs2 := (s_halves c (sent m c)).1 $$ Hs
  icases Hs2 with ⟨HsL, HsR⟩
  sl_exec
  -- the two halves of the send buffer meet again
  ihave Hs := (s_halves c (sent m c)).2 $$ [HatS_pay1 HsR]
  · isplitl [HatS_pay1] <;> iassumption
  -- the two own cells close: their counters at zero are the device's again
  imod (Rounds.cell_close ER (sched m) (Set.mem_univ (K (c, 1))) (fun h => h) (R := 1) (duties_later m (sendCell c))) $$ [HatS] with HzS
  · isplitr; · iexact HIsnd
    iexact HatS
  imod (Rounds.cell_close ER (sched m) (Set.mem_univ (K (c, 2))) (fun h => h) (R := 1) (duties_later m (recvCell c))) $$ [HatV] with HzV
  · isplitr; · iexact HIrcv
    iexact HatV
  rw [stored_o m c g1, wp_ret]; imodintro
  iapply Hk
  unfold bodyPost Φ₁ Dat.owesAt Pipeline.owesWithin sPts rPts landed
  rw [show (dats m 0 c).owed t₀.succ = 0 from rfl]
  isplitl [Hs HatV_pay1 HzS HzV]
  · isplitl [Hs]; · iexact Hs
    isplitl [HatV_pay1]; · iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    rw [← xPts_eq]; iexact Hx
  iexists _; isplitr; · (ipureintro; rfl)
  rw [← oPts_eq]; iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`: the pipeline's pre at the one point is the body's own, at some names. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hs, Hr⟩, Ho, Hx, Hout⟩
  iapply (sound_body m K c fun _ => bodyPost m c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs] <;> iassumption
    isplitl [Ho]; · iexact Ho
    isplitl [Hx] <;> iassumption
  · iintro H; iexact H

end Body

end Cert.Kernel.AllReduce

end
-- ==== Proof.LaunchKernel.lean ====
/-
  The launch: the protocol's ghost state allocated for all eight devices at once, each device's credit for what its peer
  owes it, and the run of the whole mesh from one device's body.
-/
import proofs.«900343_g7700000000000344_dist_ar_v7x_xyz2x2x2_z_m256_n256_bf16_1_alg».proof.Proof.BodyKernel

noncomputable section

namespace Cert.Kernel.AllReduce

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- Every device's three cells; -/
def protoCells : Finset (GSem nD τ sig) := Finset.univ.map ⟨kcell, kcell_injective⟩

/-- and their duty tokens as minted: one a cell (round 0, the one duty). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`; -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- what the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- One device's three counters at zero and round states become its three cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays — its peer's barrier and receive
    duties, its own send duty. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the axis: a device's barrier and receive tokens go to its peer, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv across (fun c : Dev nD => (dutyTok ER (barCell c) 0 () : sProp 𝕄)),
    bigSep_univ_equiv across (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit: what the others owe a device's cells is what its peer owes them -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by have := bar_eq_iff.mp h1; rw [this, peer_peer])), if_neg h]

omit [FloatOps F] in
theorem owed_recv (d c : Dev nD) : O₀ d (recvCell c) () = if d = peer c then N else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by have := recv_eq_iff.mp h1; rw [this, peer_peer])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  isplitl [Hs]; · iexact Hs
  isplitl [Hf]
  · iexists f; rw [sPts_eq]; iexact Hf
  · iexists g; rw [rPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hs, Hr, HzS, HzV⟩
  isplitr; · iempintro
  isplitl [HzS HzV]
  · isplitl [HzS] <;> iassumption
  isplitl [Hs]
  · iexists (sent m c); rw [← sPts_eq]; iexact Hs
  · iexists (landed m c); rw [← rPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, at any float instance, from any memory with zero counters: every weakly fair
    execution of @main — the eight kernels shaking hands pairwise on the barrier semaphore, then exchanging their blocks —
    terminates, and every final state has each device's two windowed arrays at the proof data's final contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.Kernel.AllReduce

end
-- ==== Proof.ValueKernel.lean ====
/-
  The arrays after the run: the input array as it was, the result array at the sum of the two rounded blocks.

  The kernel has no grid: its one point's output block is the whole result array (block index 0 on both axes, so an
  element's place in the block is its place in the array), and the point writes the block back; so the array ends
  holding what the body left in the output's staging buffer.
-/
import proofs.«900343_g7700000000000344_dist_ar_v7x_xyz2x2x2_z_m256_n256_bf16_1_alg».proof.Proof.LaunchKernel
import Idealize.ShloMosaic.Lib.Pipeline.Value

noncomputable section

namespace Cert.Kernel.AllReduce

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The input array is never written. -/
theorem finalA_x (c : Dev nD) : finalA m c (0 : Fin 2) = m ((c : Thread nD τ).loc main_arg0) :=
  (dats (F := F) m 0 c).arrAt_in (0 : Fin 2) rfl _

/-- An element's place in the one block is its place in the array. -/
theorem emb_out (t : Fin cfg0.N) (j : ((cfg0.win (1 : Fin 2)).xblock (cfg0.grid.coords t)).Idx) :
    ((cfg0.win (1 : Fin 2)).blk t).view.emb j = j := by
  funext a; apply Fin.ext
  show win0_1.index t a * S256x256.size a + 1 * (j a).val = (j a).val
  show 0 * S256x256.size a + 1 * (j a).val = (j a).val
  omega

/-- What the one point writes back is the body's result read through the block. -/
theorem flushed_out (c : Dev nD) (t : Fin cfg0.N) :
    (dats m 0 c).flushed (1 : Fin 2) t = ((cfg0.win (1 : Fin 2)).blk t).view.read (Elt F) (outAt m c) := by
  funext j
  show outAt m c j = outAt m c (((cfg0.win (1 : Fin 2)).blk t).view.emb j)
  rw [emb_out]

/-- Every index of the result array is in the one block. -/
theorem cover_out (i : S256x256.Idx) : ∃ t : Fin cfg0.N, (cfg0.win (1 : Fin 2)).flush t = true ∧ i ∈ ((cfg0.win (1 : Fin 2)).blk t).view.set := by
  refine ⟨t₀, flush0_1 t₀, ?_⟩
  show i ∈ ((View.whole main_v1).slice (win0_1.rect t₀)).set
  rw [View.set_slice_whole, Rect.mem_set_unit]
  intro a
  have ha : (i a).val < S256x256.size a := (i a).isLt
  show win0_1.index t₀ a * S256x256.size a ≤ (i a).val ∧ (i a).val < win0_1.index t₀ a * S256x256.size a + S256x256.size a
  show 0 * S256x256.size a ≤ (i a).val ∧ (i a).val < 0 * S256x256.size a + S256x256.size a
  omega

/-- The result array ends at the body's result. -/
theorem finalA_out (c : Dev nD) : finalA m c (1 : Fin 2) = outAt m c :=
  (dats m 0 c).arrAt_eq_of_cover (1 : Fin 2) _ (fun t _ => flushed_out m c t) cover_out

/-- The run with every array named: on each device the result array ends at the sum of its own rounded block and its
    peer's, and its block of `x` is unchanged. -/
theorem run : θ_run defs (onTc (τ := τ) (main (F := F))) ⟨m, fun _ => 0, ρ⟩ (fun r => ∀ c : Dev nD,
    r.2.mem ((c : Thread nD τ).loc main_v1) = outAt m c
      ∧ r.2.mem ((c : Thread nD τ).loc main_arg0) = m ((c : Thread nD τ).loc main_arg0)) :=
  (θ_run defs _ _).mono (fun r h c => ⟨(h c (1 : Fin 2)).trans (finalA_out m c), (h c (0 : Fin 2)).trans (finalA_x m c)⟩)
    (run_main m ρ)

/-- The staged block of `x` is the device's whole argument array. -/
theorem xblk_eq (c : Dev nD) : xblk m c = m ((c : Thread nD τ).loc main_arg0) := by
  funext j
  show m ((c : Thread nD τ).loc main_arg0) ((win0_0.blk (0 : Fin 1)).view.emb j) = m ((c : Thread nD τ).loc main_arg0) j
  refine congrArg _ (funext fun a => Fin.ext ?_)
  show win0_0.index (0 : Fin 1) a * S256x256.size a + 1 * (j a).val = (j a).val
  show 0 * S256x256.size a + 1 * (j a).val = (j a).val
  omega

end Cert.Kernel.AllReduce

end
-- ==== Proof.ProtoKernelIdeal.lean ====
/-
  The all-reduce across the mesh's last axis, one device's view of it: the protocol.

  Eight devices, numbered row-major over a 2 x 2 x 2 mesh; device `c` and the device `peer c` across the last axis
  (the two differ in the last coordinate only, so `peer` is an involution) exchange their blocks. Each device
  * signals its peer's barrier semaphore one unit, handing the peer its landing buffer (and the fact that it stands at
    round 0 of its receive cell): from then on the peer may copy into that buffer;
  * rounds its block of `x` into its send buffer;
  * waits one unit on its own barrier semaphore (the peer's signal: the peer's landing buffer comes with it);
  * copies its send buffer into the peer's landing buffer, the copy crediting its own send semaphore once the source is
    read and the peer's receive semaphore once the destination is written;
  * waits for its own receive semaphore (the peer's copy has landed: the landing buffer holds the peer's rounded block),
    adds the two buffers into the output block, and only then waits for its own send semaphore.
  The send buffer is READ (by the addition) while the copy out of it is still in flight, so the copy is lent one half
  share of it and the device keeps the other half to read with; the two halves meet again at the last wait.

  Three cells a device, one round each, one duty a round (duty names `Unit`): the barrier cell's duty is paid by the peer's
  signal (one unit), the receive cell's by the peer's copy and the send cell's by the device's own copy (the buffer's
  credit `N` each). A device owes, at launch, one unit to its peer's barrier cell and `N` to its peer's receive cell. Levels:
  barrier cells 1, receive cells 2, everything else 0 — a device waits on its barrier cell while it owes only a receive
  cell, and on its receive and send cells owing nothing.
-/
import proofs.«900343_g7700000000000344_dist_ar_v7x_xyz2x2x2_z_m256_n256_bf16_1_alg».proof.Proof.Gen.KernelIdeal
import proofs.«900343_g7700000000000344_dist_ar_v7x_xyz2x2x2_z_m256_n256_bf16_1_alg».proof.Proof.Gen.KernelIdeal.Skeleton
import proofs.«900343_g7700000000000344_dist_ar_v7x_xyz2x2x2_z_m256_n256_bf16_1_alg».proof.Proof.Gen.KernelIdeal.Launch
import proofs.«900343_g7700000000000344_dist_ar_v7x_xyz2x2x2_z_m256_n256_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's own (duty names `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The peer across the last mesh axis -/

/-- Device `c` is at `(c / 4, c / 2 % 2, c % 2)`; its peer has the last coordinate flipped: `c + 1` for even `c`,
    `c - 1` for odd. -/
def peer (c : Dev nD) : Dev nD := ⟨c.val + 1 - 2 * (c.val % 2), by have h : c.val < 8 := c.isLt; show _ < 8; omega⟩

theorem peer_peer (c : Dev nD) : peer (peer c) = c := by revert c; decide
theorem peer_ne (c : Dev nD) : peer c ≠ c := by revert c; decide

/-- Both device words the kernel computes (for the signal and for the copy) name the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def across : Dev nD ≃ Dev nD := ⟨peer, peer, peer_peer, peer_peer⟩

/-! ## The memrefs and cells -/

abbrev xM : Memref sig .tc .vmem S256x256 .f32 := Memref.whole cc0_stg0_0
abbrev oM : Memref sig .tc .vmem S256x256 .bf16 := Memref.whole cc0_stg1_0
/-- The send buffer (the device's rounded block) and the landing buffer (where the peer's copy arrives). -/
abbrev sM : Memref sig .tc .vmem S256x256 .bf16 := Memref.whole cc0_scratch0
abbrev rM : Memref sig .tc .vmem S256x256 .bf16 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three the protocol runs on: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- Device `c`'s block of `x`, as its input window stages it. -/
def xblk (c : Dev nD) : (cc0_stg0_0 : Ref sig .tc).ty.Contents (Elt F) :=
  (win0_0.blk (0 : Fin 1)).view.read (Elt F) (m ((c : Thread nD τ).loc main_arg0))

/-- What device `c` puts in its send buffer: its block rounded to the narrow format. -/
def sent (c : Dev nD) : (cc0_scratch0 : Ref sig .tc).ty.Contents (Elt F) := k0_pay2 (xblk m c)

/-- What lands on device `c`: its peer's send buffer. -/
def landed (c : Dev nD) : Buf (Elt F) ((rM : Memref sig .tc .vmem S256x256 .bf16).view.loc (c : Thread nD τ)) := sent m (peer c)

/-- The kernel's result on device `c`: its own rounded block plus its peer's. -/
def outAt (c : Dev nD) : (cc0_stg1_0 : Ref sig .tc).ty.Contents (Elt F) := k0_pay1 (sent m c) (sent m (peer c))

omit [FloatOps F] in
/-- A whole buffer overwritten with a whole buffer's contents holds those contents. -/
theorem landed_eq (c : Dev nD) (fd : Buf (Elt F) ((rM : Memref sig .tc .vmem S256x256 .bf16).view.loc (c : Thread nD τ)))
    (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

def sPts (q : PosShare TreeShare) (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{q} f
def rPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f

omit [FloatOps F] in
instance sPts_storable (q : PosShare TreeShare) (c : Dev nD) (f) : BI.Storable (upEmb : UEmb _ 𝕄) (sPts (F := F) q c f) := by unfold sPts; infer_instance
omit [FloatOps F] in
instance rPts_storable (c : Dev nD) (f) : BI.Storable (upEmb : UEmb _ 𝕄) (rPts (F := F) c f) := by unfold rPts; infer_instance

omit [FloatOps F] in
theorem s_set : (sM : Memref sig .tc .vmem S256x256 .bf16).view.set = Finset.univ := View.set_whole _
omit [FloatOps F] in
theorem r_set : (rM : Memref sig .tc .vmem S256x256 .bf16).view.set = Finset.univ := View.set_whole _
omit [FloatOps F] in
theorem sPts_eq (q : PosShare TreeShare) (c : Dev nD) (f : Buf (Elt F) ((c : Thread nD τ).loc cc0_scratch0)) :
    sPts q c f = (((c : Thread nD τ).loc cc0_scratch0) ↦{q} f : sProp 𝕄) := by unfold sPts; rw [s_set]
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [r_set]

omit [FloatOps F] in
/-- The send buffer whole is its two half shares. -/
theorem sPts_halves (c : Dev nD) (f : Buf (Elt F) ((c : Thread nD τ).loc cc0_scratch0)) :
    (sPts fullShare c f : sProp 𝕄) ⊣⊢ iprop(sPts fullShare.left c f ∗ sPts fullShare.right c f) := by
  rw [sPts_eq, sPts_eq, sPts_eq]
  exact pointsTo_share (PosShare.mem_left_op_right fullShare)

/-! ## The schedule -/

/-- What the peer's signal hands device `c`: the peer's landing buffer, and that the peer stands at round 0 of its receive cell. -/
def barPay (c : Dev nD) : sProp 𝕄 := iprop((∃ f, rPts (peer c) f) ∗ reached ER (recvCell (peer c)) 0)
/-- What the peer's copy hands device `c`: its landing buffer holding the peer's send buffer. -/
def recvPay (c : Dev nD) : sProp 𝕄 := rPts c (landed m c)
/-- What the device's own copy hands back: the half of the send buffer it was lent. -/
def sendPay (c : Dev nD) : sProp 𝕄 := sPts fullShare.left c (sent m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, of one duty: a barrier cell's is one unit; a send or receive cell's the buffer's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its peer's receive cell the buffer's credit (its copy) and its peer's barrier cell one unit (its
    signal, made first: the last summand). -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging cell (level 0) is below everything a device owes at any time. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait (level 1) a device owes its peer's receive cell (level 2) only. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The ghost state a device starts from, and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three, and
    its peer's barrier cell (its signal) and receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device `c` starts from: the invariants; its positions at round 0 of its three cells; that
    round 0 is reached of the cells it pays and of its own send and receive cells; the three duty tokens it pays with —
    its peer's barrier duty, its peer's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N) ∗ levAts L lv)

/-- Before the point: that, and the two scratch buffers at some contents. -/
def Φ₀ (c : Dev nD) : sProp 𝕄 := iprop(start m c ∗ (∃ f, sPts fullShare c f) ∗ (∃ f, rPts c f))
/-- After it: the send buffer whole again, the landing buffer holding the peer's, the two own cells at zero, closed. -/
def Φ₁ (c : Dev nD) : sProp 𝕄 :=
  iprop(sPts fullShare c (sent m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.AllReduce

end
-- ==== Proof.BodyKernelIdeal.lean ====
/-
  One device's body, at a symbolic device `c`: from the protocol's ghost state and the staged block of `x` to the output
  block holding the sum of the device's rounded block and its peer's, the send buffer whole again, the landing buffer
  holding the peer's rounded block, the device's two own cells closed at zero, nothing owed.

  In program order: the signal pays the peer's barrier duty (handing over the landing buffer); the block is rounded into
  the send buffer; the barrier wait, made while the device still owes its peer's receive cell, brings the peer's landing
  buffer; the copy pays the device's own send duty with one half of the send buffer and the peer's receive duty with the
  peer's landing buffer rewritten; the receive wait brings the device's own landing buffer, written by the peer; the two
  buffers are read — the send buffer at the half the device kept — and their sum stored; the send wait brings the lent
  half back.
-/
import proofs.«900343_g7700000000000344_dist_ar_v7x_xyz2x2x2_z_m256_n256_bf16_1_alg».proof.Proof.ProtoKernelIdeal

noncomputable section

namespace Cert.KernelIdeal.AllReduce

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem xPts_eq (c : Dev nD) (f : Buf (Elt F) ((c : Thread nD τ).loc cc0_stg0_0)) :
    ((xM : Memref sig .tc .vmem S256x256 .f32).view.loc (c : Thread nD τ) ↦[(xM : Memref sig .tc .vmem S256x256 .f32).view.set]{fullShare} f : sProp 𝕄)
      = (((c : Thread nD τ).loc cc0_stg0_0) ↦{fullShare} f) := by rw [View.set_whole]
omit [FloatOps F] in
theorem oPts_eq (c : Dev nD) (f : Buf (Elt F) ((c : Thread nD τ).loc cc0_stg1_0)) :
    ((oM : Memref sig .tc .vmem S256x256 .bf16).view.loc (c : Thread nD τ) ↦[(oM : Memref sig .tc .vmem S256x256 .bf16).view.set]{fullShare} f : sProp 𝕄)
      = (((c : Thread nD τ).loc cc0_stg1_0) ↦{fullShare} f) := by rw [View.set_whole]

omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f
omit [FloatOps F] in
theorem read_s (f : (cc0_scratch0 : Ref sig .tc).ty.Contents (Elt F)) : (sM : Memref sig .tc .vmem S256x256 .bf16).view.readAt (Elt F) r0.toLoadRect f = f :=
  Memref.readAt_unit_zero (Elt F) cc0_scratch0 hz _ f
omit [FloatOps F] in
theorem read_r (f : (cc0_scratch1 : Ref sig .tc).ty.Contents (Elt F)) : (rM : Memref sig .tc .vmem S256x256 .bf16).view.readAt (Elt F) r0.toLoadRect f = f :=
  Memref.readAt_unit_zero (Elt F) cc0_scratch1 hz _ f

/-- The send buffer after the store of the rounded block, whatever it held. -/
theorem stored_s (c : Dev nD) (f : (cc0_scratch0 : Ref sig .tc).ty.Contents (Elt F)) :
    (sM : Memref sig .tc .vmem S256x256 .bf16).view.writes (Elt F) f
        [⟨r0, k0_pay2 ((xM : Memref sig .tc .vmem S256x256 .f32).view.readAt (Elt F) r0.toLoadRect (xblk m c))⟩] = sent m c := by
  rw [View.writes_singleton, read_x]
  exact Memref.write_access_unit_zero_univ (Elt F) cc0_scratch0 hz _ f _

omit [FloatOps F] in
/-- The send buffer whole is its two half shares (through the memref's view). -/
theorem s_halves (c : Dev nD) (f : Buf (Elt F) ((c : Thread nD τ).loc cc0_scratch0)) :
    ((sM : Memref sig .tc .vmem S256x256 .bf16).view.loc (c : Thread nD τ) ↦[(sM : Memref sig .tc .vmem S256x256 .bf16).view.set]{fullShare} f : sProp 𝕄)
      ⊣⊢ iprop(((sM : Memref sig .tc .vmem S256x256 .bf16).view.loc (c : Thread nD τ) ↦[(sM : Memref sig .tc .vmem S256x256 .bf16).view.set]{fullShare.left} f)
        ∗ ((sM : Memref sig .tc .vmem S256x256 .bf16).view.loc (c : Thread nD τ) ↦[(sM : Memref sig .tc .vmem S256x256 .bf16).view.set]{fullShare.right} f)) := by
  have h := sPts_halves (F := F) c f
  unfold sPts at h
  exact h

/-- The output's staging buffer after the store of the sum, whatever it held. -/
theorem stored_o (c : Dev nD) (f : (cc0_stg1_0 : Ref sig .tc).ty.Contents (Elt F)) :
    (oM : Memref sig .tc .vmem S256x256 .bf16).view.writes (Elt F) f
        [⟨r0, k0_pay1 ((sM : Memref sig .tc .vmem S256x256 .bf16).view.readAt (Elt F) r0.toLoadRect (sent m c))
            ((rM : Memref sig .tc .vmem S256x256 .bf16).view.readAt (Elt F) r0.toLoadRect (sent m (peer c)))⟩] = outAt m c := by
  rw [View.writes_singleton, read_s, read_r]
  exact Memref.write_access_unit_zero_univ (Elt F) cc0_stg1_0 hz _ f _

def bodyPre (c : Dev nD) : sProp 𝕄 :=
  iprop((ghost m K c ∗ cred (tallyAt (barCell c) () 1) ∗ cred (tallyAt (recvCell c) () N) ∗ levAts L lv ∗ (∃ f, sPts fullShare c f) ∗ (∃ f, rPts c f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xblk m c) ∗ stg c cc0_stg1_0 (outAt m c))

/-! The schedule's payloads spelt out as assertions about buffers. For the peer's cells the payload speaks of the peer's
    peer, which is the device itself (`peer` is an involution): those entries are stated with that resolved. -/

theorem tbl_payload_bar (c : Dev nD) (d : Unit) : (sched (F := F) m).payload (barCell c) 0 d
    = iprop((∃ f, ((rM : Memref sig .tc .vmem S256x256 .bf16).view.loc (peer c : Thread nD τ) ↦[(rM : Memref sig .tc .vmem S256x256 .bf16).view.set]{fullShare} f))
        ∗ reached ER (recvCell (peer c)) 0) := by
  rw [payload_bar]; unfold barPay rPts; rfl
theorem tbl_payload_recv (c : Dev nD) (d : Unit) : (sched (F := F) m).payload (recvCell c) 0 d
    = ((rM : Memref sig .tc .vmem S256x256 .bf16).view.loc (c : Thread nD τ) ↦[(rM : Memref sig .tc .vmem S256x256 .bf16).view.set]{fullShare} sent m (peer c)) := by
  rw [payload_recv]; unfold recvPay rPts landed; rfl
theorem tbl_payload_send (c : Dev nD) (d : Unit) : (sched (F := F) m).payload (sendCell c) 0 d
    = ((sM : Memref sig .tc .vmem S256x256 .bf16).view.loc (c : Thread nD τ) ↦[(sM : Memref sig .tc .vmem S256x256 .bf16).view.set]{fullShare.left} sent m c) := by
  rw [payload_send]; unfold sendPay sPts; rfl

theorem tbl_payload_bar_peer (c : Dev nD) (d : Unit) : (sched (F := F) m).payload (barCell (peer c)) 0 d
    = iprop((∃ f, ((rM : Memref sig .tc .vmem S256x256 .bf16).view.loc (c : Thread nD τ) ↦[(rM : Memref sig .tc .vmem S256x256 .bf16).view.set]{fullShare} f))
        ∗ reached ER (recvCell c) 0) := by
  rw [payload_bar]; unfold barPay rPts; rw [peer_peer]
theorem tbl_payload_recv_peer (c : Dev nD) (d : Unit) : (sched (F := F) m).payload (recvCell (peer c)) 0 d
    = ((rM : Memref sig .tc .vmem S256x256 .bf16).view.loc (peer c : Thread nD τ) ↦[(rM : Memref sig .tc .vmem S256x256 .bf16).view.set]{fullShare} sent m c) := by
  rw [payload_recv]; unfold recvPay rPts landed; rw [peer_peer]

attribute [local sl_rounds high] tbl_payload_bar_peer tbl_payload_recv_peer
attribute [local sl_rounds] duties_bar duties_send duties_recv amount_bar amount_send amount_recv expect_bar expect_send expect_recv
  tbl_payload_bar tbl_payload_recv tbl_payload_send

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs⟩, ⟨%fr0, Hr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₁ sPts rPts
  ihave Hx := (Entails.of_eq (xPts_eq c _).symm) $$ Hx
  ihave Hout := (Entails.of_eq (oPts_eq c _).symm) $$ Hout
  have hmw := mayWait_bar (F := F) c
  have hd1 := dev1_eq c
  have hd2 := dev2_eq c
  sl_exec
  -- the send buffer holds the rounded block; one half of it is lent to the copy, the other kept to read with
  rw [stored_s m c fs0]
  ihave Hs2 := (s_halves c (sent m c)).1 $$ Hs
  icases Hs2 with ⟨HsL, HsR⟩
  sl_exec
  -- the two halves of the send buffer meet again
  ihave Hs := (s_halves c (sent m c)).2 $$ [HatS_pay1 HsR]
  · isplitl [HatS_pay1] <;> iassumption
  -- the two own cells close: their counters at zero are the device's again
  imod (Rounds.cell_close ER (sched m) (Set.mem_univ (K (c, 1))) (fun h => h) (R := 1) (duties_later m (sendCell c))) $$ [HatS] with HzS
  · isplitr; · iexact HIsnd
    iexact HatS
  imod (Rounds.cell_close ER (sched m) (Set.mem_univ (K (c, 2))) (fun h => h) (R := 1) (duties_later m (recvCell c))) $$ [HatV] with HzV
  · isplitr; · iexact HIrcv
    iexact HatV
  rw [stored_o m c g1, wp_ret]; imodintro
  iapply Hk
  unfold bodyPost Φ₁ Dat.owesAt Pipeline.owesWithin sPts rPts landed
  rw [show (dats m 0 c).owed t₀.succ = 0 from rfl]
  isplitl [Hs HatV_pay1 HzS HzV]
  · isplitl [Hs]; · iexact Hs
    isplitl [HatV_pay1]; · iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    rw [← xPts_eq]; iexact Hx
  iexists _; isplitr; · (ipureintro; rfl)
  rw [← oPts_eq]; iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`: the pipeline's pre at the one point is the body's own, at some names. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hs, Hr⟩, Ho, Hx, Hout⟩
  iapply (sound_body m K c fun _ => bodyPost m c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs] <;> iassumption
    isplitl [Ho]; · iexact Ho
    isplitl [Hx] <;> iassumption
  · iintro H; iexact H

end Body

end Cert.KernelIdeal.AllReduce

end
-- ==== Proof.LaunchKernelIdeal.lean ====
/-
  The launch: the protocol's ghost state allocated for all eight devices at once, each device's credit for what its peer
  owes it, and the run of the whole mesh from one device's body.
-/
import proofs.«900343_g7700000000000344_dist_ar_v7x_xyz2x2x2_z_m256_n256_bf16_1_alg».proof.Proof.BodyKernelIdeal

noncomputable section

namespace Cert.KernelIdeal.AllReduce

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- Every device's three cells; -/
def protoCells : Finset (GSem nD τ sig) := Finset.univ.map ⟨kcell, kcell_injective⟩

/-- and their duty tokens as minted: one a cell (round 0, the one duty). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`; -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- what the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- One device's three counters at zero and round states become its three cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays — its peer's barrier and receive
    duties, its own send duty. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the axis: a device's barrier and receive tokens go to its peer, its send token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv across (fun c : Dev nD => (dutyTok ER (barCell c) 0 () : sProp 𝕄)),
    bigSep_univ_equiv across (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit: what the others owe a device's cells is what its peer owes them -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by have := bar_eq_iff.mp h1; rw [this, peer_peer])), if_neg h]

omit [FloatOps F] in
theorem owed_recv (d c : Dev nD) : O₀ d (recvCell c) () = if d = peer c then N else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by have := recv_eq_iff.mp h1; rw [this, peer_peer])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  isplitl [Hs]; · iexact Hs
  isplitl [Hf]
  · iexists f; rw [sPts_eq]; iexact Hf
  · iexists g; rw [rPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hs, Hr, HzS, HzV⟩
  isplitr; · iempintro
  isplitl [HzS HzV]
  · isplitl [HzS] <;> iassumption
  isplitl [Hs]
  · iexists (sent m c); rw [← sPts_eq]; iexact Hs
  · iexists (landed m c); rw [← rPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, at any float instance, from any memory with zero counters: every weakly fair
    execution of @main — the eight kernels shaking hands pairwise on the barrier semaphore, then exchanging their blocks —
    terminates, and every final state has each device's two windowed arrays at the proof data's final contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdeal.AllReduce

end
-- ==== Proof.ValueKernelIdeal.lean ====
/-
  The arrays after the run: the input array as it was, the result array at the sum of the two rounded blocks.

  The kernel has no grid: its one point's output block is the whole result array (block index 0 on both axes, so an
  element's place in the block is its place in the array), and the point writes the block back; so the array ends
  holding what the body left in the output's staging buffer.
-/
import proofs.«900343_g7700000000000344_dist_ar_v7x_xyz2x2x2_z_m256_n256_bf16_1_alg».proof.Proof.LaunchKernelIdeal
import Idealize.ShloMosaic.Lib.Pipeline.Value

noncomputable section

namespace Cert.KernelIdeal.AllReduce

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The input array is never written. -/
theorem finalA_x (c : Dev nD) : finalA m c (0 : Fin 2) = m ((c : Thread nD τ).loc main_arg0) :=
  (dats (F := F) m 0 c).arrAt_in (0 : Fin 2) rfl _

/-- An element's place in the one block is its place in the array. -/
theorem emb_out (t : Fin cfg0.N) (j : ((cfg0.win (1 : Fin 2)).xblock (cfg0.grid.coords t)).Idx) :
    ((cfg0.win (1 : Fin 2)).blk t).view.emb j = j := by
  funext a; apply Fin.ext
  show win0_1.index t a * S256x256.size a + 1 * (j a).val = (j a).val
  show 0 * S256x256.size a + 1 * (j a).val = (j a).val
  omega

/-- What the one point writes back is the body's result read through the block. -/
theorem flushed_out (c : Dev nD) (t : Fin cfg0.N) :
    (dats m 0 c).flushed (1 : Fin 2) t = ((cfg0.win (1 : Fin 2)).blk t).view.read (Elt F) (outAt m c) := by
  funext j
  show outAt m c j = outAt m c (((cfg0.win (1 : Fin 2)).blk t).view.emb j)
  rw [emb_out]

/-- Every index of the result array is in the one block. -/
theorem cover_out (i : S256x256.Idx) : ∃ t : Fin cfg0.N, (cfg0.win (1 : Fin 2)).flush t = true ∧ i ∈ ((cfg0.win (1 : Fin 2)).blk t).view.set := by
  refine ⟨t₀, flush0_1 t₀, ?_⟩
  show i ∈ ((View.whole main_v1).slice (win0_1.rect t₀)).set
  rw [View.set_slice_whole, Rect.mem_set_unit]
  intro a
  have ha : (i a).val < S256x256.size a := (i a).isLt
  show win0_1.index t₀ a * S256x256.size a ≤ (i a).val ∧ (i a).val < win0_1.index t₀ a * S256x256.size a + S256x256.size a
  show 0 * S256x256.size a ≤ (i a).val ∧ (i a).val < 0 * S256x256.size a + S256x256.size a
  omega

/-- The result array ends at the body's result. -/
theorem finalA_out (c : Dev nD) : finalA m c (1 : Fin 2) = outAt m c :=
  (dats m 0 c).arrAt_eq_of_cover (1 : Fin 2) _ (fun t _ => flushed_out m c t) cover_out

/-- The run with every array named: on each device the result array ends at the sum of its own rounded block and its
    peer's, and its block of `x` is unchanged. -/
theorem run : θ_run defs (onTc (τ := τ) (main (F := F))) ⟨m, fun _ => 0, ρ⟩ (fun r => ∀ c : Dev nD,
    r.2.mem ((c : Thread nD τ).loc main_v1) = outAt m c
      ∧ r.2.mem ((c : Thread nD τ).loc main_arg0) = m ((c : Thread nD τ).loc main_arg0)) :=
  (θ_run defs _ _).mono (fun r h c => ⟨(h c (1 : Fin 2)).trans (finalA_out m c), (h c (0 : Fin 2)).trans (finalA_x m c)⟩)
    (run_main m ρ)

/-- The staged block of `x` is the device's whole argument array. -/
theorem xblk_eq (c : Dev nD) : xblk m c = m ((c : Thread nD τ).loc main_arg0) := by
  funext j
  show m ((c : Thread nD τ).loc main_arg0) ((win0_0.blk (0 : Fin 1)).view.emb j) = m ((c : Thread nD τ).loc main_arg0) j
  refine congrArg _ (funext fun a => Fin.ext ?_)
  show win0_0.index (0 : Fin 1) a * S256x256.size a + 1 * (j a).val = (j a).val
  show 0 * S256x256.size a + 1 * (j a).val = (j a).val
  omega

end Cert.KernelIdeal.AllReduce

end
-- ==== Proof.Bridge.lean ====
/-
  The two sides are one function of the whole array.

  The whole array `X` has 512 rows; device `c` holds the half its last mesh coordinate `c % 2` names — rows
  `256 (c % 2) + r` —, its peer the other half. Rounding to the narrow format changes nothing over the extended reals, so
  the kernel's result on device `c` at `(r, l)` is `X (256 (c % 2) + r, l) + X (256 (1 - c % 2) + r, l)`. The reference
  regroups the rows as two slabs of 256 and sums over the slab index from zero: `0 + (X (r, l) + X (256 + r, l))`. For an
  even device these are the same sum; for an odd one the two summands are swapped, and addition of extended reals is
  commutative (no finiteness is needed: nothing is distributed or cancelled).
-/
import proofs.«900343_g7700000000000344_dist_ar_v7x_xyz2x2x2_z_m256_n256_bf16_1_alg».proof.Proof.ValueKernelIdeal
import proofs.«900343_g7700000000000344_dist_ar_v7x_xyz2x2x2_z_m256_n256_bf16_1_alg».proof.Proof.Gen.ReferenceIdeal.Run
import proofs.«900343_g7700000000000344_dist_ar_v7x_xyz2x2x2_z_m256_n256_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.SL.Sem
open Cert.KernelIdeal.AllReduce (peer)

abbrev Sblk : Shape := ⟨2, ![256, 256]⟩
abbrev Swhole : Shape := ⟨2, ![512, 256]⟩

/-- Row `r` of half `k` of the whole array, column `l`. -/
def half (k : Fin 2) (i : Sblk.Idx) : Swhole.Idx := fun a => match a with
  | ⟨0, _⟩ => ⟨k.val * 256 + (i 0).val, by have h0 : (i 0).val < 256 := (i 0).isLt; have hk : k.val < 2 := k.isLt; show k.val * 256 + (i 0).val < 512; omega⟩
  | ⟨1, _⟩ => ⟨(i 1).val, (i 1).isLt⟩

/-- The result both programs compute: the two halves added, from zero. -/
def total (X : Swhole.Idx → EReal) : Sblk.Idx → EReal := fun i => 0 + (X (half 0 i) + X (half 1 i))

/-! ## The reference -/

theorem ref_idx (i : Sblk.Idx) (k : Fin 2) :
    Cert.ReferenceIdeal.Read.idx_main_v0 (Cert.ReferenceIdeal.Read.idx_main_v1 i k) = half k i := by
  funext a; apply Fin.ext
  have h0 : (i 0).val < 256 := (i 0).isLt
  have h1 : (i 1).val < 256 := (i 1).isLt
  have hk : k.val < 2 := k.isLt
  match a with
  | ⟨0, _⟩ => show ((k.val * 256 + (i 0).val) * 256 + (i 1).val) / 256 = k.val * 256 + (i 0).val; omega
  | ⟨1, _⟩ => show ((k.val * 256 + (i 0).val) * 256 + (i 1).val) % 256 = (i 1).val; omega

/-- The reference's last stage, read at an index: the sum over the two slabs, from the zero it starts at. -/
theorem ref_eq (X : (⟨Swhole, .f32⟩ : BufTy).Contents (Elt Ideal)) :
    Cert.ReferenceIdeal.Read.val_main_v2 (F := Ideal) X = total X := by
  funext i
  rw [Cert.ReferenceIdeal.Read.val_main_v2_apply, Ideal.truncf_def, Cert.ReferenceIdeal.Read.val_main_v1_apply, Fin.sum_univ_two,
    Cert.ReferenceIdeal.Read.val_main_v0_apply, Cert.ReferenceIdeal.Read.val_main_v0_apply, ref_idx, ref_idx,
    Cert.ReferenceIdeal.Read.val_main_cst_apply]
  show Ideal.ofBits .f32 0x00000000#32 + (X (half 0 i) + X (half 1 i)) = 0 + (X (half 0 i) + X (half 1 i))
  rw [Ideal.ofBits_zero_f32]

/-! ## The kernel -/

/-- A device's block coordinates: its last mesh coordinate along the rows, nothing along the columns. -/
theorem mb0 : ∀ c : Fin 8, ((Layout.meshBlock [2, 2, 2] ![[2], []] c) (0 : Fin 2)).val = c.val % 2 := by decide
theorem mb1 : ∀ c : Fin 8, ((Layout.meshBlock [2, 2, 2] ![[2], []] c) (1 : Fin 2)).val = 0 := by decide

def zc (c : Fin 8) : Fin 2 := ⟨c.val % 2, Nat.mod_lt _ (by decide)⟩

/-- A device and its peer hold the two different halves. -/
theorem zc_cases : ∀ c : Fin 8, (zc c = 0 ∧ zc (peer c) = 1) ∨ (zc c = 1 ∧ zc (peer c) = 0) := by decide

/-- Where an element of device `c`'s block is in the whole array. -/
theorem blk_idx (h : Layout.TilesN Sblk Swhole _) (c : Fin 8) (i : Sblk.Idx) :
    h.idx (Layout.meshBlock [2, 2, 2] ![[2], []] c) i = half (zc c) i := by
  funext a; apply Fin.ext
  rw [Layout.TilesN.idx_val]
  match a with
  | ⟨0, _⟩ =>
    show ((Layout.meshBlock [2, 2, 2] ![[2], []] c) (0 : Fin 2)).val * 256 + (i 0).val = (c.val % 2) * 256 + (i 0).val
    rw [mb0]
  | ⟨1, _⟩ =>
    show ((Layout.meshBlock [2, 2, 2] ![[2], []] c) (1 : Fin 2)).val * 256 + (i 1).val = (i 1).val
    rw [mb1]; omega

/-- The two blocks added are the whole array's two halves added, on every device. -/
theorem blocks_add (X : Swhole.Idx → EReal) (c : Fin 8) (i : Sblk.Idx) :
    (Layout.blockN Sblk Swhole (Layout.meshBlock [2, 2, 2] ![[2], []] c) X) i
      + (Layout.blockN Sblk Swhole (Layout.meshBlock [2, 2, 2] ![[2], []] (peer c)) X) i = total X i := by
  rw [Layout.blockN_apply, Layout.blockN_apply, blk_idx, blk_idx]
  unfold total
  rw [zero_add]
  rcases zc_cases c with ⟨h1, h2⟩ | ⟨h1, h2⟩
  · rw [h1, h2]
  · rw [h1, h2]; exact add_comm _ _

/-- The kernel's result on device `c` over the extended reals: its own block plus its peer's, element by element (the
    rounding and the same-shape casts are identities there). -/
theorem out_apply (m : (ℓ : Loc Cert.KernelIdeal.nD Cert.KernelIdeal.τ Cert.KernelIdeal.sig) → Buf (Elt Ideal) ℓ)
    (c : Dev Cert.KernelIdeal.nD) (i : Sblk.Idx) :
    Cert.KernelIdeal.AllReduce.outAt (F := Ideal) m c i
      = (show EReal from m ((c.tc : Thread Cert.KernelIdeal.nD Cert.KernelIdeal.τ).loc Cert.KernelIdeal.main_arg0) i)
        + (show EReal from m (((peer c).tc : Thread Cert.KernelIdeal.nD Cert.KernelIdeal.τ).loc Cert.KernelIdeal.main_arg0) i) := by
  unfold Cert.KernelIdeal.AllReduce.outAt Cert.KernelIdeal.AllReduce.sent
  rw [Cert.KernelIdeal.AllReduce.xblk_eq, Cert.KernelIdeal.AllReduce.xblk_eq]
  unfold Cert.KernelIdeal.Gen.k0_pay1 Cert.KernelIdeal.Gen.k0_pay2
  simp only [shapeCast_self]
  rfl

/-- On every device the kernel's result is the reference's, given that the device's buffer is its block of the whole. -/
theorem kernel_eq (m : (ℓ : Loc Cert.KernelIdeal.nD Cert.KernelIdeal.τ Cert.KernelIdeal.sig) → Buf (Elt Ideal) ℓ)
    (X : Swhole.Idx → EReal)
    (hagree : ∀ c : Dev Cert.KernelIdeal.nD,
      m ((c.tc : Thread Cert.KernelIdeal.nD Cert.KernelIdeal.τ).loc Cert.KernelIdeal.main_arg0)
        = Layout.blockN ⟨2, ![256, 256]⟩ ⟨2, ![512, 256]⟩ (Layout.meshBlock [2, 2, 2] ![[2], []] c) X)
    (c : Dev Cert.KernelIdeal.nD) :
    Cert.KernelIdeal.AllReduce.outAt (F := Ideal) m c = total X := by
  funext i
  rw [out_apply, hagree c, hagree (peer c)]
  exact blocks_add X c i

end Cert.Bridge

end
-- ==== Proof.lean ====
/-
  An all-reduce across the last axis of a 2 x 2 x 2 mesh, against a one-device sum of the whole array's two halves.

  The whole array `x` has 512 rows of 256; it is cut along its rows by the mesh's last axis, so device `c` holds the
  half its last coordinate `c % 2` names, and the device across that axis (`peer c`) holds the other half. Each device
  rounds its half to the narrow format, exchanges it with its peer (a handshake on the barrier semaphore, then one
  remote copy each way), and writes the sum of its own rounded half and the one it received; the result is replicated:
  every device ends with the whole 256 x 256 result. The reference regroups the rows as two slabs and sums over the
  slab index.

  * The three frames. Each kernel program's frame is its run with every array named (ValueKernel / ValueKernelIdeal:
    the protocol, one device's body and the launch of the eight devices are stated once, at any float instance), with
    the result dropped; the reference's is its generated run, likewise.
  * The idealization rewrote nothing, so the kernel's idealization is its own text read over the extended reals.
  * Over the extended reals the rounding is the identity and both programs compute, at row `r` and column `l`,
    `x (r, l) + x (256 + r, l)`: the reference from zero, in that order; an even device in that order, an odd device
    in the other. Addition of extended reals is commutative and zero is its unit (Bridge). Finiteness of the inputs is
    never used.
-/
import proofs.«900343_g7700000000000344_dist_ar_v7x_xyz2x2x2_z_m256_n256_bf16_1_alg».proof.Defs
import proofs.«900343_g7700000000000344_dist_ar_v7x_xyz2x2x2_z_m256_n256_bf16_1_alg».proof.Proof.Gen.Kernel
import proofs.«900343_g7700000000000344_dist_ar_v7x_xyz2x2x2_z_m256_n256_bf16_1_alg».proof.Proof.Gen.KernelIdeal
import proofs.«900343_g7700000000000344_dist_ar_v7x_xyz2x2x2_z_m256_n256_bf16_1_alg».proof.Proof.Gen.ReferenceIdeal
import proofs.«900343_g7700000000000344_dist_ar_v7x_xyz2x2x2_z_m256_n256_bf16_1_alg».proof.Proof.Gen.Pre_finite_inputs_Kernel
import proofs.«900343_g7700000000000344_dist_ar_v7x_xyz2x2x2_z_m256_n256_bf16_1_alg».proof.Proof.Gen.Pre_finite_inputs_ReferenceIdeal
import proofs.«900343_g7700000000000344_dist_ar_v7x_xyz2x2x2_z_m256_n256_bf16_1_alg».proof.Proof.Gen.ReferenceIdeal.Run
import proofs.«900343_g7700000000000344_dist_ar_v7x_xyz2x2x2_z_m256_n256_bf16_1_alg».proof.Proof.Gen.ReferenceIdeal.Read
import proofs.«900343_g7700000000000344_dist_ar_v7x_xyz2x2x2_z_m256_n256_bf16_1_alg».proof.Proof.ValueKernel
import proofs.«900343_g7700000000000344_dist_ar_v7x_xyz2x2x2_z_m256_n256_bf16_1_alg».proof.Proof.ValueKernelIdeal
import proofs.«900343_g7700000000000344_dist_ar_v7x_xyz2x2x2_z_m256_n256_bf16_1_alg».proof.Proof.Bridge
import Idealize.ShloMosaic.Adequacy
import Idealize.ShloMosaic.Init

noncomputable section

namespace Cert.Proof

open Idealize.ShloMosaic Idealize.SL.Sem

/-- The word-level kernel runs and leaves its argument arrays as they were: its run with the result dropped. -/
theorem frame_k : Cert.frame_Kernel := fun m ρ _ =>
  (θ_run Cert.Kernel.defs _ _).mono (fun _ h c => (h c).2) (Cert.Kernel.AllReduce.run (F := Bits) m ρ)

/-- The same run read over the extended reals. -/
theorem frame_ki : Cert.frame_KernelIdeal := fun m ρ _ =>
  (θ_run Cert.KernelIdeal.defs _ _).mono (fun _ h c => (h c).2) (Cert.KernelIdeal.AllReduce.run (F := Ideal) m ρ)

/-- The reference's generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both runs end at the sum of the whole array's two halves: the kernel's on every device (its block plus its
    peer's), the reference's on its one device. -/
theorem algebraic : Cert.algebraic_KernelIdeal_ReferenceIdeal := by
  intro m ρ m' ρ' _ hagree
  refine ⟨Cert.Bridge.total (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.Bridge.kernel_eq m _ hagree c), (h c).2⟩)
      (Cert.KernelIdeal.AllReduce.run (F := Ideal) m ρ)
  · exact (θ_run Cert.ReferenceIdeal.defs _ _).mono
      (fun _ h => ⟨(h 0).1.trans ((Cert.ReferenceIdeal.Read.val_main_v2_eq _).trans (Cert.Bridge.ref_eq _)), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
